-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S128 .f32) (main_arg6 : FVec F S128x40 .f32) (main_arg7 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S5000x512 : Shape := ⟨2, ![5000, 512]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 55
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000x512, .bf16⟩
  | .hbm, ⟨9, _⟩ => ⟨S512x128, .bf16⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x1, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .bf16⟩
  | .hbm, ⟨34, _⟩ => ⟨S128x40, .bf16⟩
  | .hbm, ⟨35, _⟩ => ⟨S50000x40, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x40, .f32⟩
  | .hbm, ⟨45, _⟩ => ⟨S800000x1, .f32⟩
  | .hbm, ⟨46, _⟩ => ⟨S800000x40, .f32⟩
  | .hbm, ⟨47, _⟩ => ⟨S800000x40, .f32⟩
  | .hbm, ⟨48, _⟩ => ⟨S_, .f32⟩
  | .hbm, ⟨49, _⟩ => ⟨S50000x40, .f32⟩
  | .hbm, ⟨50, _⟩ => ⟨S800000x1, .i32⟩
  | .hbm, ⟨51, _⟩ => ⟨S50000x40, .f32⟩
  | .hbm, ⟨52, _⟩ => ⟨S1x40, .f32⟩
  | .hbm, ⟨53, _⟩ => ⟨S50000x40, .f32⟩
  | .hbm, ⟨54, _⟩ => ⟨S50000x40, .f32⟩
  | .local _ .vmem, ⟨0, _⟩ => ⟨S5000x512, .bf16⟩
  | .local _ .vmem, ⟨1, _⟩ => ⟨S5000x512, .bf16⟩
  | .local _ .vmem, ⟨2, _⟩ => ⟨S512x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x40, .bf16⟩
  | .local _ .vmem, ⟨8, _⟩ => ⟨S5000x40, .f32⟩
  | .local _ .vmem, ⟨9, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S5000x512_S512x128_S5000x128_1_0_0_1_n_n_wf : DotDims.WF S5000x512 S512x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .bf16 = 32 ∨ (Rect.block (s := S128x40) S128x40.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x40, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x40, .f32⟩
  | .hbm, ⟨41, _⟩ => ⟨S800000x1, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.WholeRun.lean ====
/-
  The idealized kernel's whole run with its result NAMED.

  @main is seven segments: two format changes, the first matrix product (a pipelined region), the first aggregation
  on the host, the rectifier, two more format changes, the second matrix product (a region), the second aggregation.
  The buffer contents after each segment are a fold from the launch memory; `W7` is the fold's last stage. This
  module runs the segments from the launch and reads the final memory against `W7` at EVERY unscoped buffer, so that
  the result buffer's contents are known by name (`W7 … main_v38`) beside the unchanged arguments.
-/
import proofs.«109355_j18854906429732_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold of buffer contents (`W7`) and every argument array as launched. -/
theorem run_named : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.WholeRun

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«109355_j18854906429732_1_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.KernelLayers.lean ====
/-
  The host side of one graph-convolution layer, as functions of arrays (the kernel's program).

  `aggregate` is the message passing: a negative source index is wrapped by the number of nodes, the support rows are
  gathered at the source indices, each is scaled by its edge's weight, the scaled rows are added into the destination
  rows starting from zero, and the bias is added to every row. `relu` is the maximum with zero. The numeral 1 or 2
  is the layer (128 or 40 features).
-/
import proofs.«109355_j18854906429732_1_alg».proof.KernelIdeal

noncomputable section

namespace Cert.KernelIdeal.Layers

open Cert.KernelIdeal Cert.KernelIdeal.Facts₀ Idealize.ShloMosaic

variable {F : FTy → Type} [FloatOps F] [Cert.KernelIdeal.Facts]

/-- Layer 1's message passing and bias on a support array of 128 features. -/
def aggregate1 (sup : (⟨S50000x128, .f32⟩ : BufTy).Contents (Elt F)) (src dst : (⟨S800000, .i32⟩ : BufTy).Contents (Elt F))
    (w : (⟨S800000, .f32⟩ : BufTy).Contents (Elt F)) (b : (⟨S128, .f32⟩ : BufTy).Contents (Elt F)) :
    (⟨S50000x128, .f32⟩ : BufTy).Contents (Elt F) :=
  addf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 sup (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 w)))) (broadcastInDim S50000x128 ![0, 1] bcast_S1x128_S50000x128_0_1 (broadcastInDim S1x128 ![1] bcast_S128_S1x128_1 b))

/-- The rectifier on 128 features: the maximum with zero, entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- Layer 2's message passing and bias on a support array of 40 features. -/
def aggregate2 (sup : (⟨S50000x40, .f32⟩ : BufTy).Contents (Elt F)) (src dst : (⟨S800000, .i32⟩ : BufTy).Contents (Elt F))
    (w : (⟨S800000, .f32⟩ : BufTy).Contents (Elt F)) (b : (⟨S40, .f32⟩ : BufTy).Contents (Elt F)) :
    (⟨S50000x40, .f32⟩ : BufTy).Contents (Elt F) :=
  addf (Host.scatterAdd scatter_S50000x40_S800000x1_S800000x40_1_0_0_1 (broadcastInDim S50000x40 ![] bcast_S_S50000x40 (constant S_ .f32 0x00000000#32)) (broadcastInDim S800000x1 ![0] bcast_S800000_S800000x1_0 dst) (mulf (Host.gather gather_S50000x40_S800000x1_S800000x40_1_0_n_n_0_1_140 sup (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x40 ![0, 1] bcast_S800000x1_S800000x40_0_1 (broadcastInDim S800000x1 ![0] bcast_S800000_S800000x1_0 w)))) (broadcastInDim S50000x40 ![0, 1] bcast_S1x40_S50000x40_0_1 (broadcastInDim S1x40 ![1] bcast_S40_S1x40_1 b))

end Cert.KernelIdeal.Layers

end
-- ==== Proof.Product0.lean ====
/-
  What the first pipelined matrix product leaves in its result array.

  The grid has ten points; point `t` reads rows `5000 t … 5000 t + 4999` of the left operand (all 512 columns) and the
  whole right operand, multiplies them into a zero accumulator, and writes rows `5000 t … 5000 t + 4999` of the result.
  An entry `(r, q)` of the product depends only on row `r` of the left operand and column `q` of the right one, so the
  block a point writes is that block of the product of the WHOLE arrays; the ten blocks tile the result's rows, so the
  result array ends holding the whole product. Stated for any buffer contents `V` the region is entered from.
-/
import proofs.«109355_j18854906429732_1_alg».proof.Proof.Gen.KernelIdeal.Frame
import proofs.«109355_j18854906429732_1_alg».proof.Proof.LibMatProd
import Idealize.ShloMosaic.Lib.Pipeline.Value
import Idealize.ShloMosaic.Lib.ValueIdx

noncomputable section

namespace Cert.KernelIdeal.Product0

open Cert.KernelIdeal Cert.KernelIdeal.Gen Idealize.ShloMosaic.MatProd
open Idealize.ShloMosaic Idealize.ShloMosaic.TcCoe Idealize.ShloMosaic.ValueIdx Idealize.SL.Sem
open Idealize.ShloMosaic.Pipeline (Dat)

theorem zero_offsets : (![0, 0] : Fin 2 → Nat) = fun _ => 0 := funext fun a => by fin_cases a <;> rfl

/-- The body's stored value at an entry of its block: the row of the left block times the column of the right block. -/
theorem payload_at (x0 : Vec Ideal S5000x512 .bf16) (x1 : Vec Ideal S512x128 .bf16) (y : S5000x128.Idx)
    (p : Fin 5000) (q : Fin 128) (hy : y = ix2 p q) :
    k0_pay1 x0 x1 y = ∑ k : Fin 512, x0 (ix2 p k) * x1 (ix2 k q) := by
  unfold k0_pay1
  simp only [shapeCast_self]
  exact matmul_zero_at dot_S5000x512_S512x128_S5000x128_1_0_0_1_n_n rfl none x0 x1 y p q hy

/-- The printed index maps over the grid: the left operand's row block moves with the result's; every other block
    index is zero. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
theorem index_onto : ∀ (b : Fin 10), ∃ t : Fin cfg0.N, win0_2.index t = ![b.val, 0] :=
  (by decide +kernel : ∀ (b : Fin 10), ∃ t : Fin grid0.N, win0_2.index t = ![b.val, 0])

/-- The body's result on point `t`'s blocks of two arrays is point `t`'s block of the arrays' product. -/
theorem block_of_product (A : FVec Ideal S50000x512 .bf16) (B : FVec Ideal S512x128 .bf16) (t : Fin cfg0.N) :
    out0_2 (((cfg0.win 0).blk t).view.read (Elt Ideal) A) (((cfg0.win 1).blk t).view.read (Elt Ideal) B)
      = ((cfg0.win 2).blk t).view.read (Elt Ideal) (matProd A B) := by
  unfold out0_2
  rw [View.canon_unit_zero zero_offsets]
  simp only [View.ld_unit_zero (S := S5000x512) zero_offsets, View.ld_unit_zero (S := S512x128) zero_offsets]
  obtain ⟨e00, e01, e10, e11, e21, e2le⟩ := index_facts t
  funext j
  have hj0 : (j 0).val < 5000 := (j 0).isLt
  have hj1 : (j 1).val < 128 := (j 1).isLt
  refine (payload_at _ _ j ⟨(j 0).val, hj0⟩ ⟨(j 1).val, hj1⟩
    (funext fun a => by match a with | ⟨0, _⟩ => rfl | ⟨1, _⟩ => rfl)).trans ?_
  show _ = ∑ k : Fin 512, A (ix2 ((((cfg0.win 2).blk t).view.emb j) 0) k) * B (ix2 k ((((cfg0.win 2).blk t).view.emb j) 1))
  refine Finset.sum_congr rfl fun k _ => ?_
  have hk : k.val < 512 := k.isLt
  have h0 : ((cfg0.win 0).blk t).view.emb (ix2 (⟨(j 0).val, hj0⟩ : Fin 5000) k)
      = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ix2 k (⟨(j 1).val, hj1⟩ : Fin 128))
      = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  show A (((cfg0.win 0).blk t).view.emb (ix2 (⟨(j 0).val, hj0⟩ : Fin 5000) k))
      * B (((cfg0.win 1).blk t).view.emb (ix2 k (⟨(j 1).val, hj1⟩ : Fin 128))) = _
  rw [h0, h1]
  rfl

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v2).slice (win0_2.rect t)).set ↔ _
  rw [View.set_slice_whole, Rect.mem_set_unit]
  exact Iff.rfl

/-- Row `r` of the result is written by point `r / 5000`: the ten row blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

variable (V : (c : Dev nD) → (b : Ref sig .tc) → Buf (Elt Ideal) ((c : Thread nD τ).loc b))

/-- What point `t` writes back is block `t` of the product of the whole operand arrays. -/
theorem flushed_eq (c : Dev nD) (t : Fin cfg0.N) :
    (dat0 V c).flushed 2 t
      = ((cfg0.win 2).blk t).view.read (Elt Ideal)
          (matProd (M := 50000) (K := 512) (N := 128) (φ₁ := .bf16) (φ₂ := .bf16) (V c main_v0) (V c main_v1)) := by
  show (cfg0.win 2).cut (grid0.coords t) ((dat0 V c).after 2 t) = _
  rw [after0_2]
  exact block_of_product (V c main_v0) (V c main_v1) t

/-- The result array after the region: the product of the operand arrays as the region found them. -/
theorem result_array (c : Dev nD) :
    (dat0 V c).arrAt 2 cfg0.N
      = matProd (M := 50000) (K := 512) (N := 128) (φ₁ := .bf16) (φ₂ := .bf16) (V c main_v0) (V c main_v1) :=
  (dat0 V c).arrAt_eq_of_cover 2 _ (fun t _ => flushed_eq V c t) covered

end Cert.KernelIdeal.Product0

end
-- ==== Proof.Product1.lean ====
/-
  What the second pipelined matrix product leaves in its result array.

  The grid has ten points; point `t` reads rows `5000 t … 5000 t + 4999` of the left operand (all 128 columns) and the
  whole right operand, multiplies them into a zero accumulator, and writes rows `5000 t … 5000 t + 4999` of the result.
  An entry `(r, q)` of the product depends only on row `r` of the left operand and column `q` of the right one, so the
  block a point writes is that block of the product of the WHOLE arrays; the ten blocks tile the result's rows, so the
  result array ends holding the whole product. Stated for any buffer contents `V` the region is entered from.
-/
import proofs.«109355_j18854906429732_1_alg».proof.Proof.Gen.KernelIdeal.Frame
import proofs.«109355_j18854906429732_1_alg».proof.Proof.LibMatProd
import Idealize.ShloMosaic.Lib.Pipeline.Value
import Idealize.ShloMosaic.Lib.ValueIdx

noncomputable section

namespace Cert.KernelIdeal.Product1

open Cert.KernelIdeal Cert.KernelIdeal.Gen Idealize.ShloMosaic.MatProd
open Idealize.ShloMosaic Idealize.ShloMosaic.TcCoe Idealize.ShloMosaic.ValueIdx Idealize.SL.Sem
open Idealize.ShloMosaic.Pipeline (Dat)

theorem zero_offsets : (![0, 0] : Fin 2 → Nat) = fun _ => 0 := funext fun a => by fin_cases a <;> rfl

/-- The body's stored value at an entry of its block: the row of the left block times the column of the right block. -/
theorem payload_at (x0 : Vec Ideal S5000x128 .bf16) (x1 : Vec Ideal S128x40 .bf16) (y : S5000x40.Idx)
    (p : Fin 5000) (q : Fin 40) (hy : y = ix2 p q) :
    k1_pay1 x0 x1 y = ∑ k : Fin 128, x0 (ix2 p k) * x1 (ix2 k q) := by
  unfold k1_pay1
  simp only [shapeCast_self]
  exact matmul_zero_at dot_S5000x128_S128x40_S5000x40_1_0_0_1_n_n rfl none x0 x1 y p q hy

/-- The printed index maps over the grid: the left operand's row block moves with the result's; every other block
    index is zero. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the result is some point's. -/
theorem index_onto : ∀ (b : Fin 10), ∃ t : Fin cfg1.N, win1_2.index t = ![b.val, 0] :=
  (by decide +kernel : ∀ (b : Fin 10), ∃ t : Fin grid1.N, win1_2.index t = ![b.val, 0])

/-- The body's result on point `t`'s blocks of two arrays is point `t`'s block of the arrays' product. -/
theorem block_of_product (A : FVec Ideal S50000x128 .bf16) (B : FVec Ideal S128x40 .bf16) (t : Fin cfg1.N) :
    out1_2 (((cfg1.win 0).blk t).view.read (Elt Ideal) A) (((cfg1.win 1).blk t).view.read (Elt Ideal) B)
      = ((cfg1.win 2).blk t).view.read (Elt Ideal) (matProd A B) := by
  unfold out1_2
  rw [View.canon_unit_zero zero_offsets]
  simp only [View.ld_unit_zero (S := S5000x128) zero_offsets, View.ld_unit_zero (S := S128x40) zero_offsets]
  obtain ⟨e00, e01, e10, e11, e21, e2le⟩ := index_facts t
  funext j
  have hj0 : (j 0).val < 5000 := (j 0).isLt
  have hj1 : (j 1).val < 40 := (j 1).isLt
  refine (payload_at _ _ j ⟨(j 0).val, hj0⟩ ⟨(j 1).val, hj1⟩
    (funext fun a => by match a with | ⟨0, _⟩ => rfl | ⟨1, _⟩ => rfl)).trans ?_
  show _ = ∑ k : Fin 128, A (ix2 ((((cfg1.win 2).blk t).view.emb j) 0) k) * B (ix2 k ((((cfg1.win 2).blk t).view.emb j) 1))
  refine Finset.sum_congr rfl fun k _ => ?_
  have hk : k.val < 128 := k.isLt
  have h0 : ((cfg1.win 0).blk t).view.emb (ix2 (⟨(j 0).val, hj0⟩ : Fin 5000) k)
      = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (⟨(j 1).val, hj1⟩ : Fin 40))
      = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 40 + 1 * (j 1).val = win1_2.index t (1 : Fin 2) * 40 + 1 * (j 1).val; omega
  show A (((cfg1.win 0).blk t).view.emb (ix2 (⟨(j 0).val, hj0⟩ : Fin 5000) k))
      * B (((cfg1.win 1).blk t).view.emb (ix2 k (⟨(j 1).val, hj1⟩ : Fin 40))) = _
  rw [h0, h1]
  rfl

/-- An index of the result array is in point `t`'s block iff each coordinate is in the block's range on its axis. -/
theorem mem_block (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v22).slice (win1_2.rect t)).set ↔ _
  rw [View.set_slice_whole, Rect.mem_set_unit]
  exact Iff.rfl

/-- Row `r` of the result is written by point `r / 5000`: the ten row blocks cover the array. -/
theorem covered (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

variable (V : (c : Dev nD) → (b : Ref sig .tc) → Buf (Elt Ideal) ((c : Thread nD τ).loc b))

/-- What point `t` writes back is block `t` of the product of the whole operand arrays. -/
theorem flushed_eq (c : Dev nD) (t : Fin cfg1.N) :
    (dat1 V c).flushed 2 t
      = ((cfg1.win 2).blk t).view.read (Elt Ideal)
          (matProd (M := 50000) (K := 128) (N := 40) (φ₁ := .bf16) (φ₂ := .bf16) (V c main_v20) (V c main_v21)) := by
  show (cfg1.win 2).cut (grid1.coords t) ((dat1 V c).after 2 t) = _
  rw [after1_2]
  exact block_of_product (V c main_v20) (V c main_v21) t

/-- The result array after the region: the product of the operand arrays as the region found them. -/
theorem result_array (c : Dev nD) :
    (dat1 V c).arrAt 2 cfg1.N
      = matProd (M := 50000) (K := 128) (N := 40) (φ₁ := .bf16) (φ₂ := .bf16) (V c main_v20) (V c main_v21) :=
  (dat1 V c).arrAt_eq_of_cover 2 _ (fun t _ => flushed_eq V c t) covered

end Cert.KernelIdeal.Product1

end
-- ==== Proof.KernelValue.lean ====
/-
  The idealized kernel's result as one function of its arguments.

  The buffer contents at the segment boundaries are a fold from the launch memory (`W0 … W7`). Read at the buffers that
  matter, stage by stage: the two operands of the first product are the arguments `x` and `W1` with their float format
  narrowed; the first product's result array is the matrix product of the two; the host's aggregation and the
  rectifier apply to it; the second product's operands are that and `W2`, narrowed; its result array is their matrix
  product; the host's second aggregation gives the result. No segment writes an argument, so an argument read at any
  boundary is the launch memory's.
-/
import proofs.«109355_j18854906429732_1_alg».proof.Proof.Gen.KernelIdeal.Frame
import proofs.«109355_j18854906429732_1_alg».proof.Proof.LibMatProd
import proofs.«109355_j18854906429732_1_alg».proof.Proof.KernelLayers
import proofs.«109355_j18854906429732_1_alg».proof.Proof.Product0
import proofs.«109355_j18854906429732_1_alg».proof.Proof.Product1
import Idealize.ShloMosaic.Lib.StableHlo.Run

set_option maxRecDepth 16384

noncomputable section

namespace Cert.KernelIdeal.ResultValue

open Cert.KernelIdeal Cert.KernelIdeal.Gen Cert.KernelIdeal.Layers Cert.KernelIdeal.Facts₀ Idealize.ShloMosaic.MatProd
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at the boundaries -/

/-- After the first region an argument's buffer still holds the launch contents (here: the four the first aggregation
    reads). -/
theorem W2_arg1 : W2 m ρ c (Proc.devRef .tc main_arg1) = m ((c : Thread nD τ).loc main_arg1) := by
  rw [W2_of_ne m ρ c main_arg1 (by decide)]; dsimp only [W1, hostOps0]; after_results
theorem W2_arg2 : W2 m ρ c (Proc.devRef .tc main_arg2) = m ((c : Thread nD τ).loc main_arg2) := by
  rw [W2_of_ne m ρ c main_arg2 (by decide)]; dsimp only [W1, hostOps0]; after_results
theorem W2_arg3 : W2 m ρ c (Proc.devRef .tc main_arg3) = m ((c : Thread nD τ).loc main_arg3) := by
  rw [W2_of_ne m ρ c main_arg3 (by decide)]; dsimp only [W1, hostOps0]; after_results
theorem W2_arg5 : W2 m ρ c (Proc.devRef .tc main_arg5) = m ((c : Thread nD τ).loc main_arg5) := by
  rw [W2_of_ne m ρ c main_arg5 (by decide)]; dsimp only [W1, hostOps0]; after_results
theorem W2_arg6 : W2 m ρ c (Proc.devRef .tc main_arg6) = m ((c : Thread nD τ).loc main_arg6) := by
  rw [W2_of_ne m ρ c main_arg6 (by decide)]; dsimp only [W1, hostOps0]; after_results
theorem W2_arg7 : W2 m ρ c (Proc.devRef .tc main_arg7) = m ((c : Thread nD τ).loc main_arg7) := by
  rw [W2_of_ne m ρ c main_arg7 (by decide)]; dsimp only [W1, hostOps0]; after_results

/-- The first aggregation and the rectifier write no argument. -/
theorem W4_arg1 : W4 m ρ c (Proc.devRef .tc main_arg1) = m ((c : Thread nD τ).loc main_arg1) := by
  dsimp only [W4, W3, hostOps1_1, hostOps1]; after_results; exact W2_arg1 m ρ c
theorem W4_arg2 : W4 m ρ c (Proc.devRef .tc main_arg2) = m ((c : Thread nD τ).loc main_arg2) := by
  dsimp only [W4, W3, hostOps1_1, hostOps1]; after_results; exact W2_arg2 m ρ c
theorem W4_arg3 : W4 m ρ c (Proc.devRef .tc main_arg3) = m ((c : Thread nD τ).loc main_arg3) := by
  dsimp only [W4, W3, hostOps1_1, hostOps1]; after_results; exact W2_arg3 m ρ c
theorem W4_arg6 : W4 m ρ c (Proc.devRef .tc main_arg6) = m ((c : Thread nD τ).loc main_arg6) := by
  dsimp only [W4, W3, hostOps1_1, hostOps1]; after_results; exact W2_arg6 m ρ c
theorem W4_arg7 : W4 m ρ c (Proc.devRef .tc main_arg7) = m ((c : Thread nD τ).loc main_arg7) := by
  dsimp only [W4, W3, hostOps1_1, hostOps1]; after_results; exact W2_arg7 m ρ c

/-- Nor do the two format changes and the second region. -/
theorem W6_arg1 : W6 m ρ c (Proc.devRef .tc main_arg1) = m ((c : Thread nD τ).loc main_arg1) := by
  rw [W6_of_ne m ρ c main_arg1 (by decide)]; dsimp only [W5, hostOps1_2]; after_results; exact W4_arg1 m ρ c
theorem W6_arg2 : W6 m ρ c (Proc.devRef .tc main_arg2) = m ((c : Thread nD τ).loc main_arg2) := by
  rw [W6_of_ne m ρ c main_arg2 (by decide)]; dsimp only [W5, hostOps1_2]; after_results; exact W4_arg2 m ρ c
theorem W6_arg3 : W6 m ρ c (Proc.devRef .tc main_arg3) = m ((c : Thread nD τ).loc main_arg3) := by
  rw [W6_of_ne m ρ c main_arg3 (by decide)]; dsimp only [W5, hostOps1_2]; after_results; exact W4_arg3 m ρ c
theorem W6_arg7 : W6 m ρ c (Proc.devRef .tc main_arg7) = m ((c : Thread nD τ).loc main_arg7) := by
  rw [W6_of_ne m ρ c main_arg7 (by decide)]; dsimp only [W5, hostOps1_2]; after_results; exact W4_arg7 m ρ c

/-! ## The stages -/

/-- Narrowing an f32 array to bf16 (at the ideal values: the identity). -/
abbrev narrow (s : Shape) (x : FVec Ideal s .f32) : FVec Ideal s .bf16 := truncf .bf16 x Facts₀.bitsLt_bf16_f32

/-- The first product's operands: `x` and `W1`, narrowed. -/
theorem stage1_lhs : W1 m ρ c (Proc.devRef .tc main_v0) = narrow S50000x512 (m ((c : Thread nD τ).loc main_arg0)) := by
  dsimp only [W1, hostOps0]; after_results <;> rfl
theorem stage1_rhs : W1 m ρ c (Proc.devRef .tc main_v1) = narrow S512x128 (m ((c : Thread nD τ).loc main_arg4)) := by
  dsimp only [W1, hostOps0]; after_results <;> rfl

/-- The first product's result array is the matrix product of its operands. -/
theorem stage2 : W2 m ρ c (Proc.devRef .tc main_v2)
    = matProd (M := 50000) (K := 512) (N := 128) (φ₁ := .bf16) (φ₂ := .bf16) (W1 m ρ c (Proc.devRef .tc main_v0)) (W1 m ρ c (Proc.devRef .tc main_v1)) :=
  (W2_arr m ρ c 2).trans (Product0.result_array (V1 m ρ) c)

set_option maxHeartbeats 2000000 in
/-- The first aggregation, on the host. -/
theorem stage3 : W3 m ρ c (Proc.devRef .tc main_v18)
    = aggregate1 (W2 m ρ c (Proc.devRef .tc main_v2)) (W2 m ρ c (Proc.devRef .tc main_arg1)) (W2 m ρ c (Proc.devRef .tc main_arg2))
        (W2 m ρ c (Proc.devRef .tc main_arg3)) (W2 m ρ c (Proc.devRef .tc main_arg5)) := by
  show StableHlo.after hostOps1 (W2 m ρ c) (Proc.devRef .tc main_v18) = _
  generalize W2 m ρ c = U
  dsimp only [hostOps1]; after_results_simp <;> rfl

/-- The rectifier. -/
theorem stage4 : W4 m ρ c (Proc.devRef .tc main_v19) = relu (W3 m ρ c (Proc.devRef .tc main_v18)) := by
  show StableHlo.after hostOps1_1 (W3 m ρ c) (Proc.devRef .tc main_v19) = relu (W3 m ρ c (Proc.devRef .tc main_v18))
  generalize W3 m ρ c = U
  dsimp only [hostOps1_1]; after_results_simp <;> rfl

/-- The second product's operands: the hidden layer and `W2`, narrowed. -/
theorem stage5_lhs : W5 m ρ c (Proc.devRef .tc main_v20) = narrow S50000x128 (W4 m ρ c (Proc.devRef .tc main_v19)) := by
  show StableHlo.after hostOps1_2 (W4 m ρ c) (Proc.devRef .tc main_v20) = narrow S50000x128 (W4 m ρ c (Proc.devRef .tc main_v19))
  generalize W4 m ρ c = U
  dsimp only [hostOps1_2]; after_results_simp <;> rfl
theorem stage5_rhs : W5 m ρ c (Proc.devRef .tc main_v21) = narrow S128x40 (W4 m ρ c (Proc.devRef .tc main_arg6)) := by
  show StableHlo.after hostOps1_2 (W4 m ρ c) (Proc.devRef .tc main_v21) = narrow S128x40 (W4 m ρ c (Proc.devRef .tc main_arg6))
  generalize W4 m ρ c = U
  dsimp only [hostOps1_2]; after_results_simp <;> rfl

/-- The second product's result array is the matrix product of its operands. -/
theorem stage6 : W6 m ρ c (Proc.devRef .tc main_v22)
    = matProd (M := 50000) (K := 128) (N := 40) (φ₁ := .bf16) (φ₂ := .bf16) (W5 m ρ c (Proc.devRef .tc main_v20)) (W5 m ρ c (Proc.devRef .tc main_v21)) :=
  (W6_arr m ρ c 2).trans (Product1.result_array (V5 m ρ) c)

set_option maxHeartbeats 2000000 in
/-- The second aggregation, on the host. -/
theorem stage7 : W7 m ρ c (Proc.devRef .tc main_v38)
    = aggregate2 (W6 m ρ c (Proc.devRef .tc main_v22)) (W6 m ρ c (Proc.devRef .tc main_arg1)) (W6 m ρ c (Proc.devRef .tc main_arg2))
        (W6 m ρ c (Proc.devRef .tc main_arg3)) (W6 m ρ c (Proc.devRef .tc main_arg7)) := by
  show StableHlo.after hostOps2 (W6 m ρ c) (Proc.devRef .tc main_v38) = _
  generalize W6 m ρ c = U
  dsimp only [hostOps2]; after_results_simp <;> rfl

/-! ## The result -/

/-- The two layers composed, as one function of the eight argument arrays. -/
def network (x : (⟨S50000x512, .f32⟩ : BufTy).Contents (Elt Ideal)) (src dst : (⟨S800000, .i32⟩ : BufTy).Contents (Elt Ideal))
    (w : (⟨S800000, .f32⟩ : BufTy).Contents (Elt Ideal)) (w1 : (⟨S512x128, .f32⟩ : BufTy).Contents (Elt Ideal))
    (b1 : (⟨S128, .f32⟩ : BufTy).Contents (Elt Ideal)) (w2 : (⟨S128x40, .f32⟩ : BufTy).Contents (Elt Ideal))
    (b2 : (⟨S40, .f32⟩ : BufTy).Contents (Elt Ideal)) : (⟨S50000x40, .f32⟩ : BufTy).Contents (Elt Ideal) :=
  aggregate2 (matProd (M := 50000) (K := 128) (N := 40) (φ₁ := .f32) (φ₂ := .f32)
      (relu (aggregate1 (matProd (M := 50000) (K := 512) (N := 128) (φ₁ := .f32) (φ₂ := .f32) x w1) src dst w b1)) w2) src dst w b2

/-- Equal arguments give equal values of a function of five arguments. -/
theorem congr5 {α β γ δ ε ζ : Sort _} (f : α → β → γ → δ → ε → ζ) {a a' : α} {b b' : β} {d d' : γ} {e e' : δ} {g g' : ε}
    (ha : a = a') (hb : b = b') (hd : d = d') (he : e = e') (hg : g = g') : f a b d e g = f a' b' d' e' g' := by
  subst ha hb hd he hg; rfl

/-- The first layer's support: the product of `x` and `W1` (the narrowing is the identity). -/
theorem support1_value : W2 m ρ c (Proc.devRef .tc main_v2)
    = matProd (M := 50000) (K := 512) (N := 128) (φ₁ := .f32) (φ₂ := .f32)
        (m ((c : Thread nD τ).loc main_arg0)) (m ((c : Thread nD τ).loc main_arg4)) :=
  (stage2 m ρ c).trans
    ((congrArg₂ (matProd (M := 50000) (K := 512) (N := 128) (φ₁ := .bf16) (φ₂ := .bf16)) (stage1_lhs m ρ c) (stage1_rhs m ρ c)).trans
      (matProd_truncf (M := 50000) (K := 512) (N := 128) (φ₁ := .f32) (φ₂ := .f32) (ψ₁ := .bf16) (ψ₂ := .bf16) _ _ _ _))

/-- The hidden layer: the rectified first aggregation of the first support. -/
theorem hidden_value : W4 m ρ c (Proc.devRef .tc main_v19)
    = relu (aggregate1 (matProd (M := 50000) (K := 512) (N := 128) (φ₁ := .f32) (φ₂ := .f32)
        (m ((c : Thread nD τ).loc main_arg0)) (m ((c : Thread nD τ).loc main_arg4)))
        (m ((c : Thread nD τ).loc main_arg1)) (m ((c : Thread nD τ).loc main_arg2)) (m ((c : Thread nD τ).loc main_arg3))
        (m ((c : Thread nD τ).loc main_arg5))) :=
  (stage4 m ρ c).trans (congrArg (relu (F := Ideal)) ((stage3 m ρ c).trans
    (congr5 (aggregate1 (F := Ideal)) (support1_value m ρ c) (W2_arg1 m ρ c) (W2_arg2 m ρ c) (W2_arg3 m ρ c) (W2_arg5 m ρ c))))

/-- The second layer's support: the product of the hidden layer and `W2`. -/
theorem support2_value : W6 m ρ c (Proc.devRef .tc main_v22)
    = matProd (M := 50000) (K := 128) (N := 40) (φ₁ := .f32) (φ₂ := .f32)
        (relu (aggregate1 (matProd (M := 50000) (K := 512) (N := 128) (φ₁ := .f32) (φ₂ := .f32)
          (m ((c : Thread nD τ).loc main_arg0)) (m ((c : Thread nD τ).loc main_arg4)))
          (m ((c : Thread nD τ).loc main_arg1)) (m ((c : Thread nD τ).loc main_arg2)) (m ((c : Thread nD τ).loc main_arg3))
          (m ((c : Thread nD τ).loc main_arg5))))
        (m ((c : Thread nD τ).loc main_arg6)) :=
  (stage6 m ρ c).trans
    ((congrArg₂ (matProd (M := 50000) (K := 128) (N := 40) (φ₁ := .bf16) (φ₂ := .bf16))
        ((stage5_lhs m ρ c).trans (congrArg (narrow S50000x128) (hidden_value m ρ c)))
        ((stage5_rhs m ρ c).trans (congrArg (narrow S128x40) (W4_arg6 m ρ c)))).trans
      (matProd_truncf (M := 50000) (K := 128) (N := 40) (φ₁ := .f32) (φ₂ := .f32) (ψ₁ := .bf16) (ψ₂ := .bf16) _ _ _ _))

/-- The result buffer after the run holds the network of the arguments. -/
theorem result_value : W7 m ρ c (Proc.devRef .tc main_v38)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold network
  exact (stage7 m ρ c).trans
    (congr5 (aggregate2 (F := Ideal)) (support2_value m ρ c) (W6_arg1 m ρ c) (W6_arg2 m ρ c) (W6_arg3 m ρ c) (W6_arg7 m ρ c))

end Cert.KernelIdeal.ResultValue

end
-- ==== Proof.ReferenceLayers.lean ====
/-
  The host side of one graph-convolution layer, as functions of arrays (the reference).

  `aggregate` is the message passing: a negative source index is wrapped by the number of nodes, the support rows are
  gathered at the source indices, each is scaled by its edge's weight, the scaled rows are added into the destination
  rows starting from zero, and the bias is added to every row. `relu` is the maximum with zero. The numeral 1 or 2
  is the layer (128 or 40 features).
-/
import proofs.«109355_j18854906429732_1_alg».proof.ReferenceIdeal

noncomputable section

namespace Cert.ReferenceIdeal.Layers

open Cert.ReferenceIdeal Cert.ReferenceIdeal.Facts₀ Idealize.ShloMosaic

variable {F : FTy → Type} [FloatOps F] [Cert.ReferenceIdeal.Facts]

/-- Layer 1's message passing and bias on a support array of 128 features. -/
def aggregate1 (sup : (⟨S50000x128, .f32⟩ : BufTy).Contents (Elt F)) (src dst : (⟨S800000, .i32⟩ : BufTy).Contents (Elt F))
    (w : (⟨S800000, .f32⟩ : BufTy).Contents (Elt F)) (b : (⟨S128, .f32⟩ : BufTy).Contents (Elt F)) :
    (⟨S50000x128, .f32⟩ : BufTy).Contents (Elt F) :=
  addf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (Host.gather gather_S50000x128_S800000x1_S800000x128_1_0_n_n_0_1_1128 sup (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 w)))) (broadcastInDim S50000x128 ![0, 1] bcast_S1x128_S50000x128_0_1 (broadcastInDim S1x128 ![1] bcast_S128_S1x128_1 b))

/-- The rectifier on 128 features: the maximum with zero, entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- Layer 2's message passing and bias on a support array of 40 features. -/
def aggregate2 (sup : (⟨S50000x40, .f32⟩ : BufTy).Contents (Elt F)) (src dst : (⟨S800000, .i32⟩ : BufTy).Contents (Elt F))
    (w : (⟨S800000, .f32⟩ : BufTy).Contents (Elt F)) (b : (⟨S40, .f32⟩ : BufTy).Contents (Elt F)) :
    (⟨S50000x40, .f32⟩ : BufTy).Contents (Elt F) :=
  addf (Host.scatterAdd scatter_S50000x40_S800000x1_S800000x40_1_0_0_1 (broadcastInDim S50000x40 ![] bcast_S_S50000x40 (constant S_ .f32 0x00000000#32)) (broadcastInDim S800000x1 ![0] bcast_S800000_S800000x1_0 dst) (mulf (Host.gather gather_S50000x40_S800000x1_S800000x40_1_0_n_n_0_1_140 sup (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x40 ![0, 1] bcast_S800000x1_S800000x40_0_1 (broadcastInDim S800000x1 ![0] bcast_S800000_S800000x1_0 w)))) (broadcastInDim S50000x40 ![0, 1] bcast_S1x40_S50000x40_0_1 (broadcastInDim S1x40 ![1] bcast_S40_S1x40_1 b))

end Cert.ReferenceIdeal.Layers

end
-- ==== Proof.ReferenceValue.lean ====
/-
  The reference's result as the same function of its arguments.

  The reference computes each layer's support with one host `dot_general`, which at the ideal values is the matrix
  product; everything after it is the layer's message passing and bias, and between the layers the rectifier. So its
  run's composed term is `network` of the eight argument arrays.
-/
import proofs.«109355_j18854906429732_1_alg».proof.Proof.Gen.ReferenceIdeal.Run
import proofs.«109355_j18854906429732_1_alg».proof.Proof.LibMatProd
import proofs.«109355_j18854906429732_1_alg».proof.Proof.ReferenceLayers

noncomputable section

namespace Cert.ReferenceIdeal.ResultValue

open Cert.ReferenceIdeal Cert.ReferenceIdeal.Gen Cert.ReferenceIdeal.Layers Cert.ReferenceIdeal.Facts₀ Idealize.ShloMosaic.MatProd
open Idealize.ShloMosaic Idealize.ShloMosaic.TcCoe Idealize.SL.Sem

/-- The two layers composed, as one function of the eight argument arrays. -/
def network (x : (⟨S50000x512, .f32⟩ : BufTy).Contents (Elt Ideal)) (src dst : (⟨S800000, .i32⟩ : BufTy).Contents (Elt Ideal))
    (w : (⟨S800000, .f32⟩ : BufTy).Contents (Elt Ideal)) (w1 : (⟨S512x128, .f32⟩ : BufTy).Contents (Elt Ideal))
    (b1 : (⟨S128, .f32⟩ : BufTy).Contents (Elt Ideal)) (w2 : (⟨S128x40, .f32⟩ : BufTy).Contents (Elt Ideal))
    (b2 : (⟨S40, .f32⟩ : BufTy).Contents (Elt Ideal)) : (⟨S50000x40, .f32⟩ : BufTy).Contents (Elt Ideal) :=
  aggregate2 (matProd (M := 50000) (K := 128) (N := 40) (φ₁ := .f32) (φ₂ := .f32)
      (relu (aggregate1 (matProd (M := 50000) (K := 512) (N := 128) (φ₁ := .f32) (φ₂ := .f32) x w1) src dst w b1)) w2) src dst w b2

/-- The first layer's host product is the matrix product. -/
theorem support1 (x : (⟨S50000x512, .f32⟩ : BufTy).Contents (Elt Ideal)) (w1 : (⟨S512x128, .f32⟩ : BufTy).Contents (Elt Ideal)) :
    Host.dotGeneral (φ₁ := .f32) (φ₂ := .f32) dot_S50000x512_S512x128_S50000x128_1_0_0_1_n_n none x w1
      = matProd (M := 50000) (K := 512) (N := 128) (φ₁ := .f32) (φ₂ := .f32) x w1 :=
  dotGeneral_eq_matProd (M := 50000) (K := 512) (N := 128) (φ₁ := .f32) (φ₂ := .f32) _ rfl none .single x w1

/-- The second layer's host product is the matrix product. -/
theorem support2 (h : (⟨S50000x128, .f32⟩ : BufTy).Contents (Elt Ideal)) (w2 : (⟨S128x40, .f32⟩ : BufTy).Contents (Elt Ideal)) :
    Host.dotGeneral (φ₁ := .f32) (φ₂ := .f32) dot_S50000x128_S128x40_S50000x40_1_0_0_1_n_n none h w2
      = matProd (M := 50000) (K := 128) (N := 40) (φ₁ := .f32) (φ₂ := .f32) h w2 :=
  dotGeneral_eq_matProd (M := 50000) (K := 128) (N := 40) (φ₁ := .f32) (φ₂ := .f32) _ rfl none .single h w2

/-- The two host products with the layers' host sides around them are the network. -/
theorem layers_eq (x : (⟨S50000x512, .f32⟩ : BufTy).Contents (Elt Ideal)) (src dst : (⟨S800000, .i32⟩ : BufTy).Contents (Elt Ideal))
    (w : (⟨S800000, .f32⟩ : BufTy).Contents (Elt Ideal)) (w1 : (⟨S512x128, .f32⟩ : BufTy).Contents (Elt Ideal))
    (b1 : (⟨S128, .f32⟩ : BufTy).Contents (Elt Ideal)) (w2 : (⟨S128x40, .f32⟩ : BufTy).Contents (Elt Ideal))
    (b2 : (⟨S40, .f32⟩ : BufTy).Contents (Elt Ideal)) :
    aggregate2 (Host.dotGeneral (φ₁ := .f32) (φ₂ := .f32) dot_S50000x128_S128x40_S50000x40_1_0_0_1_n_n none
        (relu (aggregate1 (Host.dotGeneral (φ₁ := .f32) (φ₂ := .f32) dot_S50000x512_S512x128_S50000x128_1_0_0_1_n_n none x w1) src dst w b1)) w2) src dst w b2
      = network x src dst w w1 b1 w2 b2 := by
  rw [support1, support2]
  rfl

/-- The reference's run with its result at the network of its arguments. -/
theorem run_network (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (layers_eq _ _ _ _ _ _ _ _), (h c).2⟩)
    (Cert.ReferenceIdeal.Value.run (F := Ideal) m ρ)

end Cert.ReferenceIdeal.ResultValue

end
-- ==== Proof.lean ====
/-
  Two graph-convolution layers: the kernel computes each layer's support `x · W` by a pipelined matrix product over ten
  row blocks (operands narrowed to bf16 first) and does the message passing — gather at the edge sources, scale by the
  edge weights, add into the edge destinations, add the bias — on the host; the reference computes the support by one
  host product and the same message passing. Between the layers both take the maximum with zero.

  Over the extended reals the two agree entry by entry: a change of float format is the identity, and a matrix
  product's entry `(r, q)` is the sum over `k` of `a (r, k) * w (k, q)` however its rows are blocked — addition of
  extended reals is commutative and associative, and nothing is distributed or cancelled, so no finiteness is used.
  The host sides are the same operations on both sides, carried as the functions `aggregate1`, `relu`, `aggregate2`
  and never opened.

  The frames of the two kernel programs are the generated ones; the reference's frame is its generated run with the
  result dropped; the ideal pass rewrote nothing, so `preserves` is `True`.
-/
import proofs.«109355_j18854906429732_1_alg».proof.Defs
import proofs.«109355_j18854906429732_1_alg».proof.Proof.Gen.Kernel
import proofs.«109355_j18854906429732_1_alg».proof.Proof.Gen.Kernel.Skeleton
import proofs.«109355_j18854906429732_1_alg».proof.Proof.Gen.Kernel.Launch
import proofs.«109355_j18854906429732_1_alg».proof.Proof.Gen.Kernel.Points
import proofs.«109355_j18854906429732_1_alg».proof.Proof.Gen.Kernel.Frame
import proofs.«109355_j18854906429732_1_alg».proof.Proof.Gen.KernelIdeal
import proofs.«109355_j18854906429732_1_alg».proof.Proof.Gen.KernelIdeal.Skeleton
import proofs.«109355_j18854906429732_1_alg».proof.Proof.Gen.KernelIdeal.Launch
import proofs.«109355_j18854906429732_1_alg».proof.Proof.Gen.KernelIdeal.Points
import proofs.«109355_j18854906429732_1_alg».proof.Proof.Gen.KernelIdeal.Frame
import proofs.«109355_j18854906429732_1_alg».proof.Proof.Gen.ReferenceIdeal
import proofs.«109355_j18854906429732_1_alg».proof.Proof.Gen.ReferenceIdeal.Run
import proofs.«109355_j18854906429732_1_alg».proof.Proof.Gen.Pre_finite_inputs
import proofs.«109355_j18854906429732_1_alg».proof.Proof.WholeRun
import proofs.«109355_j18854906429732_1_alg».proof.Proof.KernelValue
import proofs.«109355_j18854906429732_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel's network and the reference's are one function: the same host operations around the same two matrix
    products (the two programs' dimension records have the same fields). -/
theorem network_eq (x : (⟨Cert.KernelIdeal.S50000x512, .f32⟩ : BufTy).Contents (Elt Ideal))
    (src dst : (⟨Cert.KernelIdeal.S800000, .i32⟩ : BufTy).Contents (Elt Ideal))
    (w : (⟨Cert.KernelIdeal.S800000, .f32⟩ : BufTy).Contents (Elt Ideal)) (w1 : (⟨Cert.KernelIdeal.S512x128, .f32⟩ : BufTy).Contents (Elt Ideal))
    (b1 : (⟨Cert.KernelIdeal.S128, .f32⟩ : BufTy).Contents (Elt Ideal)) (w2 : (⟨Cert.KernelIdeal.S128x40, .f32⟩ : BufTy).Contents (Elt Ideal))
    (b2 : (⟨Cert.KernelIdeal.S40, .f32⟩ : BufTy).Contents (Elt Ideal)) :
    Cert.ReferenceIdeal.ResultValue.network x src dst w w1 b1 w2 b2 = Cert.KernelIdeal.ResultValue.network x src dst w w1 b1 w2 b2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result arrays. -/
theorem algebraic : Cert.algebraic_KernelIdeal_ReferenceIdeal := by
  intro m ρ m' ρ' _ hagree
  refine ⟨fun c => Cert.KernelIdeal.ResultValue.network
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.ResultValue.result_value m ρ c), (h c).2⟩)
      (Cert.KernelIdeal.WholeRun.run_named (F := Ideal) m ρ)
  · refine (θ_run Cert.ReferenceIdeal.defs _ _).mono (fun _ h c => ⟨(h c).1.trans ?_, (h c).2⟩)
      (Cert.ReferenceIdeal.ResultValue.run_network m' ρ')
    obtain ⟨a0, a1, a2, a3, a4, a5, a6, a7⟩ := hagree c
    rw [a0, a1, a2, a3, a4, a5, a6, a7]
    exact network_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
